-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x1024 : Shape := ⟨3, ![8, 4096, 1024]⟩
abbrev S1024 : Shape := ⟨1, ![1024]⟩
abbrev S8x1024 : Shape := ⟨2, ![8, 1024]⟩
abbrev S_ : Shape := ⟨0, ![]⟩

class Facts : Prop where
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S8x1024 : S_.BroadcastsInDim S8x1024 (![] : Fin 0 → Fin S8x1024.rank)
  reducesTo_S8x1024_S_d0_1 : S8x1024.ReducesTo [0, 1] S_

variable [Facts]

def fn_part1 {F : FTy → Type} [FloatOps F] (main_v13 : IVec S_ 1) (main_v16 : IVec S8x1024 1) : IVec S_ 1 :=
  let main_c_5 : IVec S_ 1 := constantI S_ 1 1#1
  let main_v17 : IVec S_ 1 := (fun x v => Host.reduce IntOp.andi x v reducesTo_S8x1024_S_d0_1 h_S_) main_v16 main_c_5
  let main_v18 : IVec S_ 1 := andi main_v13 main_v17
  main_v18

def fn {F : FTy → Type} [FloatOps F] (main_arg0 : FVec F S8x4096x1024 .f32) (main_arg1 : FVec F S1024 .f32) (main_arg2 : FVec F S1024 .f32) (main_arg3 : FVec F S8x1024 .f32) : IVec S_ 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_c : IVec S_ 1 := constantI S_ 1 1#1
  let main_v3 : IVec S_ 1 := (fun x v => Host.reduce IntOp.andi x v reducesTo_S8x4096x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S8x1024 .f32 := Host.absf main_arg3
  let main_cst_4 : FVec F S_ .f32 := constant S_ .f32 0x7F800000#32
  let main_v15 : FVec F S8x1024 .f32 := broadcastInDim S8x1024 ![] bcast_S_S8x1024 main_cst_4
  let main_v16 : IVec S8x1024 1 := cmpf .olt main_v14 main_v15
  fn_part1 (F := F) main_v13 main_v16
-- ==== Kernel.lean ====
abbrev S8x4096x1024 : Shape := ⟨3, ![8, 4096, 1024]⟩
abbrev S1024 : Shape := ⟨1, ![1024]⟩
abbrev S8x1024 : Shape := ⟨2, ![8, 1024]⟩
abbrev S32768x1024 : Shape := ⟨2, ![32768, 1024]⟩
abbrev S1x1024 : Shape := ⟨2, ![1, 1024]⟩
abbrev S1024x8 : Shape := ⟨2, ![1024, 8]⟩
abbrev S32768x8 : Shape := ⟨2, ![32768, 8]⟩
abbrev S4096x1024 : Shape := ⟨2, ![4096, 1024]⟩
abbrev S4096x8 : Shape := ⟨2, ![4096, 8]⟩
abbrev S4096 : Shape := ⟨1, ![4096]⟩
abbrev S4096x1 : Shape := ⟨2, ![4096, 1]⟩
abbrev S8x4096x8 : Shape := ⟨3, ![8, 4096, 8]⟩

abbrev nBuf : Space → Nat
  | .hbm => 10
  | .vmem => 7
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024, .f32⟩
  | .hbm, ⟨3, _⟩ => ⟨S8x1024, .f32⟩
  | .hbm, ⟨4, _⟩ => ⟨S32768x1024, .f32⟩
  | .hbm, ⟨5, _⟩ => ⟨S1x1024, .f32⟩
  | .hbm, ⟨6, _⟩ => ⟨S1x1024, .f32⟩
  | .hbm, ⟨7, _⟩ => ⟨S1024x8, .f32⟩
  | .hbm, ⟨8, _⟩ => ⟨S32768x8, .f32⟩
  | .hbm, ⟨9, _⟩ => ⟨S8x4096x8, .f32⟩
  | .local _ .vmem, ⟨0, _⟩ => ⟨S4096x1024, .f32⟩
  | .local _ .vmem, ⟨1, _⟩ => ⟨S4096x1024, .f32⟩
  | .local _ .vmem, ⟨2, _⟩ => ⟨S1x1024, .f32⟩
  | .local _ .vmem, ⟨3, _⟩ => ⟨S1x1024, .f32⟩
  | .local _ .vmem, ⟨4, _⟩ => ⟨S1024x8, .f32⟩
  | .local _ .vmem, ⟨5, _⟩ => ⟨S4096x8, .f32⟩
  | .local _ .vmem, ⟨6, _⟩ => ⟨S4096x8, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4096x8 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S8x4096x1024_S32768x1024 : S8x4096x1024.ShapeCasts S32768x1024
  shapeCasts_S1024_S1x1024 : S1024.ShapeCasts S1x1024
  transposes_S8x1024_S1024x8_1_0 : S8x1024.Transposes [1, 0] S1024x8
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  reduces_S4096x1024_S4096 : S4096x1024.Reduces [1] S4096
  shapeCasts_S4096_S4096x1 : S4096.ShapeCasts S4096x1
  broadcasts_S4096x1_S4096x1024 : S4096x1.Broadcasts S4096x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S4096x1024 : S1x1024.Broadcasts S4096x1024
  inb_S1024x8_S1024x8_0_0 : ∀ a, (![0, 0] : Fin 2 → Nat) a + S1024x8.size a ≤ S1024x8.size a
  h_S1024x8 : 0 < S1024x8.numel
  shapeCasts_S1024x8_S1024x8 : S1024x8.ShapeCasts S1024x8
  inb_S4096x8_S4096x8_0_0 : ∀ a, (![0, 0] : Fin 2 → Nat) a + S4096x8.size a ≤ S4096x8.size a
  h_S4096x8 : 0 < S4096x8.numel
  shapeCasts_S32768x8_S8x4096x8 : S32768x8.ShapeCasts S8x4096x8
  dot_S4096x1024_S1024x8_S4096x8_1_0_0_1_n_n_wf : DotDims.WF S4096x1024 S1024x8 S4096x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x1024.size a ≤ S32768x1024.size a
  hwx0_0 : ∀ i : grid0.Coords, EltTy.bits .f32 = 32 ∨ (Rect.block (s := S32768x1024) S4096x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x1024.size a
  hwx0_1 : ∀ i : grid0.Coords, EltTy.bits .f32 = 32 ∨ (Rect.block (s := S1x1024) S1x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x8.size a ≤ S1024x8.size a
  hwx0_3 : ∀ i : grid0.Coords, EltTy.bits .f32 = 32 ∨ (Rect.block (s := S1024x8) S1024x8.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4096x8.size a ≤ S32768x8.size a
  hwx0_4 : ∀ i : grid0.Coords, EltTy.bits .f32 = 32 ∨ (Rect.block (s := S32768x8) S4096x8.size (cc0_transform_4 i) (hinb0_4 i)).WholeWords (EltTy.packing .f32)

variable [Facts₀]

def dot_S4096x1024_S1024x8_S4096x8_1_0_0_1_n_n : DotDims S4096x1024 S1024x8 S4096x8 where
  lhsContracting := [1]
  rhsContracting := [0]
  lhsNonContracting := [0]
  rhsNonContracting := [1]
  lhsBatch := []
  rhsBatch := []
  wf := dot_S4096x1024_S1024x8_S4096x8_1_0_0_1_n_n_wf

abbrev win0_0 : Pipeline.Window sig grid0 :=
  Pipeline.Window.ofSpec (Memref.whole main_v0) S4096x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x8.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S4096x8.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x4096x1024 : Shape := ⟨3, ![8, 4096, 1024]⟩
abbrev S1024 : Shape := ⟨1, ![1024]⟩
abbrev S8x1024 : Shape := ⟨2, ![8, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x8 : Shape := ⟨3, ![8, 4096, 8]⟩

abbrev nBuf : Space → Nat
  | .hbm => 41
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024, .f32⟩
  | .hbm, ⟨3, _⟩ => ⟨S8x1024, .f32⟩
  | .hbm, ⟨4, _⟩ => ⟨S_, .f32⟩
  | .hbm, ⟨5, _⟩ => ⟨S8x4096, .f32⟩
  | .hbm, ⟨6, _⟩ => ⟨S8x4096x1, .f32⟩
  | .hbm, ⟨7, _⟩ => ⟨S_, .f32⟩
  | .hbm, ⟨8, _⟩ => ⟨S8x4096x1, .f32⟩
  | .hbm, ⟨9, _⟩ => ⟨S8x4096x1, .f32⟩
  | .hbm, ⟨10, _⟩ => ⟨S8x4096x1024, .f32⟩
  | .hbm, ⟨11, _⟩ => ⟨S8x4096x1024, .f32⟩
  | .hbm, ⟨12, _⟩ => ⟨S8x4096x1024, .f32⟩
  | .hbm, ⟨13, _⟩ => ⟨S_, .f32⟩
  | .hbm, ⟨14, _⟩ => ⟨S8x4096, .f32⟩
  | .hbm, ⟨15, _⟩ => ⟨S8x4096x1, .f32⟩
  | .hbm, ⟨16, _⟩ => ⟨S_, .f32⟩
  | .hbm, ⟨17, _⟩ => ⟨S8x4096x1, .f32⟩
  | .hbm, ⟨18, _⟩ => ⟨S8x4096x1, .f32⟩
  | .hbm, ⟨19, _⟩ => ⟨S8x4096x1024, .f32⟩
  | .hbm, ⟨20, _⟩ => ⟨S8x4096x1024, .f32⟩
  | .hbm, ⟨21, _⟩ => ⟨S_, .f32⟩
  | .hbm, ⟨22, _⟩ => ⟨S8x4096x1, .f32⟩
  | .hbm, ⟨23, _⟩ => ⟨S8x4096x1, .f32⟩
  | .hbm, ⟨24, _⟩ => ⟨S8x4096x1, .f32⟩
  | .hbm, ⟨25, _⟩ => ⟨S8x4096x1024, .f32⟩
  | .hbm, ⟨26, _⟩ => ⟨S8x4096x1024, .f32⟩
  | .hbm, ⟨27, _⟩ => ⟨S1x1x1024, .f32⟩
  | .hbm, ⟨28, _⟩ => ⟨S8x4096x1024, .f32⟩
  | .hbm, ⟨29, _⟩ => ⟨S8x4096x1024, .f32⟩
  | .hbm, ⟨30, _⟩ => ⟨S1x1x1024, .f32⟩
  | .hbm, ⟨31, _⟩ => ⟨S8x4096x1024, .f32⟩
  | .hbm, ⟨32, _⟩ => ⟨S8x4096x1024, .f32⟩
  | .hbm, ⟨33, _⟩ => ⟨S8x4096x8, .f32⟩
  | .hbm, ⟨34, _⟩ => ⟨S8x4096x8, .f32⟩
  | .hbm, ⟨35, _⟩ => ⟨S_, .f32⟩
  | .hbm, ⟨36, _⟩ => ⟨S8x4096x8, .f32⟩
  | .hbm, ⟨37, _⟩ => ⟨S8x4096x8, .f32⟩
  | .hbm, ⟨38, _⟩ => ⟨S8x4096x8, .f32⟩
  | .hbm, ⟨39, _⟩ => ⟨S8x4096x8, .f32⟩
  | .hbm, ⟨40, _⟩ => ⟨S8x4096x8, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_4 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩

abbrev nD : Nat := 1
abbrev τ : Topo := Topo.v7x

variable {F : FTy → Type} [FloatOps F]

class Facts₀ : Prop where
  reducesTo_S8x4096x1024_S8x4096_d2 : S8x4096x1024.ReducesTo [2] S8x4096
  h_S_ : 0 < S_.numel
  bcast_S8x4096_S8x4096x1_0_1 : S8x4096.BroadcastsInDim S8x4096x1 (![0, 1] : Fin 2 → Fin S8x4096x1.rank)
  bcast_S_S8x4096x1 : S_.BroadcastsInDim S8x4096x1 (![] : Fin 0 → Fin S8x4096x1.rank)
  bcast_S8x4096x1_S8x4096x1024_0_1_2 : S8x4096x1.BroadcastsInDim S8x4096x1024 (![0, 1, 2] : Fin 3 → Fin S8x4096x1024.rank)
  bcast_S1024_S1x1x1024_2 : S1024.BroadcastsInDim S1x1x1024 (![2] : Fin 1 → Fin S1x1x1024.rank)
  bcast_S1x1x1024_S8x4096x1024_0_1_2 : S1x1x1024.BroadcastsInDim S8x4096x1024 (![0, 1, 2] : Fin 3 → Fin S8x4096x1024.rank)
  bcast_S_S8x4096x8 : S_.BroadcastsInDim S8x4096x8 (![] : Fin 0 → Fin S8x4096x8.rank)
  dot_S8x4096x1024_S8x1024_S8x4096x8_2_1_01_0_n_n_wf : DotDims.WF S8x4096x1024 S8x1024 S8x4096x8 [2] [1] [0, 1] [0] [] []

variable [Facts₀]

def dot_S8x4096x1024_S8x1024_S8x4096x8_2_1_01_0_n_n : DotDims S8x4096x1024 S8x1024 S8x4096x8 where
  lhsContracting := [2]
  rhsContracting := [1]
  lhsNonContracting := [0, 1]
  rhsNonContracting := [0]
  lhsBatch := []
  rhsBatch := []
  wf := dot_S8x4096x1024_S8x1024_S8x4096x8_2_1_01_0_n_n_wf

class Facts : Prop extends Facts₀ where

variable [Facts]
-- ==== Proof.Spec.lean ====
/-
  The specification of the finite-scalar-quantizer head, as one function of the argument arrays on the extended reals.

  For a token (batch b, position s) with feature row x = regrs[b, s, ·] of length 1024:
    mean  = (∑ₖ xₖ) / 1024
    cₖ    = xₖ − mean
    var   = (∑ₖ cₖ · cₖ) / 1024
    inv   = rsqrt (var + ε)
    yₖ    = cₖ · inv · wₖ + bₖ                     (layer normalisation with scale w and shift b)
    z_n   = ∑ₖ yₖ · W[n, k]                        (projection onto level channel n)
    code  = roundeven (h · tanh z_n)               (bounded, then rounded to the nearest integer, ties to even)
  The three float literals (1024, ε, h) are kept as their binary words: both programs carry the same words, so
  their values are never needed — except that h is a finite real, which the straight-through form of the
  rounding uses (`ste_round`).
-/
import Idealize.ShloMosaic.PureOps.Ideal
import Idealize.ShloMosaic.PureOps.Ideal.Laws
import Idealize.ShloMosaic.Lib.ValueIdx

noncomputable section

namespace Cert.Fsq

open Idealize.ShloMosaic Idealize.ShloMosaic.ValueIdx

/-- The divisor 1024, the variance offset ε (the f32 nearest 1e-5) and the half-width h (the f32 nearest 3.996),
    as the words both programs print. -/
abbrev cN : EReal := Ideal.ofBits .f32 0x44800000#32
abbrev cEps : EReal := Ideal.ofBits .f32 0x3727C5AC#32
abbrev cHalf : EReal := Ideal.ofBits .f32 0x407FBE77#32

/-- The mean of a feature row. -/
def mean (x : Fin 1024 → EReal) : EReal := Ideal.div (∑ k : Fin 1024, x k) cN
/-- The row centred at its mean. -/
def cen (x : Fin 1024 → EReal) (k : Fin 1024) : EReal := x k - mean x
/-- The (biased) variance of the row. -/
def var (x : Fin 1024 → EReal) : EReal := Ideal.div (∑ k : Fin 1024, cen x k * cen x k) cN
/-- The reciprocal standard deviation, offset by ε. -/
def inv (x : Fin 1024 → EReal) : EReal := Ideal.rsqrt (var x + cEps)
/-- The normalised row, scaled by `w` and shifted by `b`. -/
def normed (x w b : Fin 1024 → EReal) (k : Fin 1024) : EReal := cen x k * inv x * w k + b k
/-- The projection of the normalised row onto one level channel with weights `p`. -/
def logit (x w b p : Fin 1024 → EReal) : EReal := ∑ k : Fin 1024, normed x w b k * p k
/-- The bounded value `h · tanh z`. -/
def bounded (x w b p : Fin 1024 → EReal) : EReal := cHalf * Ideal.tanh (logit x w b p)
/-- The code: the bounded value rounded to the nearest integer, ties to even. -/
def code (x w b p : Fin 1024 → EReal) : EReal := Ideal.liftRound Ideal.roundHalfEven (bounded x w b p)

/-- The result array [8, 4096, 8] as a function of regrs [8, 4096, 1024], the scale and shift [1024] and the
    projection weights [8, 1024]: entry (b, s, n) is the code of row (b, s) against weight row n. -/
def G (x : (⟨3, ![8, 4096, 1024]⟩ : Shape).Idx → EReal) (w b : (⟨1, ![1024]⟩ : Shape).Idx → EReal)
    (W : (⟨2, ![8, 1024]⟩ : Shape).Idx → EReal) : (⟨3, ![8, 4096, 8]⟩ : Shape).Idx → EReal :=
  fun i => code (fun k => x (ix3 (i 0) (i 1) k)) (fun k => w (ix1 k)) (fun k => b (ix1 k)) (fun k => W (ix2 (i 2) k))

/-- The same over the flattened token axis: rows [32768, 1024], scale and shift as [1, 1024] rows, the weights
    transposed to [1024, 8]; entry (r, n) of the [32768, 8] result. -/
def Gflat (X : (⟨2, ![32768, 1024]⟩ : Shape).Idx → EReal) (w b : (⟨2, ![1, 1024]⟩ : Shape).Idx → EReal)
    (Wt : (⟨2, ![1024, 8]⟩ : Shape).Idx → EReal) : (⟨2, ![32768, 8]⟩ : Shape).Idx → EReal :=
  fun i => code (fun k => X (ix2 (i 0) k)) (fun k => w (ix2 (0 : Fin 1) k)) (fun k => b (ix2 (0 : Fin 1) k))
    (fun k => Wt (ix2 k (i 1)))

/-- The half-width is a finite real. -/
theorem cHalf_real : ∃ r : ℝ, cHalf = (r : EReal) := by
  have ht : cHalf ≠ ⊤ := by simp [cHalf, Ideal.ofBits, Ideal.ieee, -EReal.coe_mul]
  have hb : cHalf ≠ ⊥ := by simp [cHalf, Ideal.ofBits, Ideal.ieee, -EReal.coe_mul]
  exact ⟨cHalf.toReal, (EReal.coe_toReal ht hb).symm⟩

/-- `tanh` of any extended real is a finite real (−1 and 1 at the infinities). -/
theorem tanh_real (z : EReal) : ∃ r : ℝ, Ideal.tanh z = (r : EReal) := by
  induction z using EReal.rec with
  | bot => exact ⟨-1, by rw [Ideal.tanh_bot]; rfl⟩
  | top => exact ⟨1, by rw [Ideal.tanh_top]; rfl⟩
  | coe r => exact ⟨Real.tanh r, rfl⟩

/-- The straight-through form of the rounding: `v + (round v − v) = round v` at a bounded value `v = h · tanh z`,
    because `v` and its rounding are finite reals (on the extended reals the identity fails at the infinities,
    which `tanh` never returns). -/
theorem ste_round (z : EReal) :
    cHalf * Ideal.tanh z + (Ideal.liftRound Ideal.roundHalfEven (cHalf * Ideal.tanh z) - cHalf * Ideal.tanh z)
      = Ideal.liftRound Ideal.roundHalfEven (cHalf * Ideal.tanh z) := by
  obtain ⟨h, hh⟩ := cHalf_real
  obtain ⟨t, ht⟩ := tanh_real z
  rw [hh, ht, ← EReal.coe_mul, Ideal.liftRound_coe, ← EReal.coe_sub, ← EReal.coe_add]
  congr 1
  ring

end Cert.Fsq

end
-- ==== Proof.RefIsSpec.lean ====
/-
  The reference program's result is the specification.

  The reference computes, for the token (b, s) with feature row x = regrs[b, s, ·] and the level channel n, one
  operation at a time:
    the row sum and the mean            m  = (0 + ∑ₖ xₖ) / 1024,        kept with a trailing axis of extent one;
    the centred row (formed twice)      cₖ = xₖ − m;
    the variance                        v  = (0 + ∑ₖ cₖ · cₖ) / 1024;
    the reciprocal standard deviation   r  = rsqrt (v + ε);
    the normalised row                  yₖ = cₖ · r · wₖ + bₖ,           the scale and shift broadcast from [1024];
    the projection                      z  = ∑ₖ yₖ · W[n, k];
    the bounded value                   u  = h · tanh z;
    the straight-through rounding       u + (roundeven u − u).
  Each stage is read at an index written by its coordinates, bottom-up, and identified with the specification's
  function of the row. Every broadcast only forgets or repeats coordinates, so at coordinates each one is the
  identity; the two sums start from the word of the float zero, which is the real 0; the last stage is
  `roundeven u` because `u = h · tanh z` is a finite real (`Cert.Fsq.ste_round`).
-/
import proofs.«137417_j28381143892079_2_alg».proof.Proof.Gen.ReferenceIdeal.Read
import proofs.«137417_j28381143892079_2_alg».proof.Proof.Spec
noncomputable section
open Idealize.ShloMosaic Idealize.ShloMosaic.ValueIdx
namespace Cert.Fsq.Ref
open Cert.ReferenceIdeal

section Stages
open Cert.ReferenceIdeal.Read

variable (x0 : (⟨S8x4096x1024, .f32⟩ : BufTy).Contents (Elt Ideal)) (x1 x2 : (⟨S1024, .f32⟩ : BufTy).Contents (Elt Ideal))
    (x3 : (⟨S8x1024, .f32⟩ : BufTy).Contents (Elt Ideal))

/-! ### The mean of a row -/

/-- The row sum at (b, s): the initial value is the float zero, the real 0, so the sum is the plain sum of the
    row's entries. -/
theorem v0_at (b : Fin 8) (s : Fin 4096) :
    val_main_v0 (F := Ideal) x0 (ix2 b s) = ∑ k : Fin 1024, x0 (ix3 b s k) := by
  rw [val_main_v0_apply, val_main_cst_apply, Ideal.ofBits_def, Ideal.ofBits_zero_f32, zero_add]
  exact Finset.sum_congr rfl fun k _ => congrArg x0
    (funext fun a => by match a with | ⟨0, _⟩ => rfl | ⟨1, _⟩ => rfl | ⟨2, _⟩ => rfl)

/-- The mean, kept as a column [8, 4096, 1]: at (b, s, ·) it is the row sum over the word of 1024. -/
theorem v3_at (b : Fin 8) (s : Fin 4096) (z : Fin 1) :
    val_main_v3 (F := Ideal) x0 (ix3 b s z) = mean (fun k => x0 (ix3 b s k)) := by
  have e : idx_main_v1 (ix3 b s z) = ix2 b s :=
    funext fun a => by match a with | ⟨0, _⟩ => rfl | ⟨1, _⟩ => rfl
  rw [val_main_v3_apply, val_main_v1_apply, e, v0_at, val_main_v2_apply, val_main_cst_0_apply, Ideal.hostDivf_def,
    Ideal.ofBits_def]
  rfl

/-! ### The centred row

The program subtracts the broadcast mean from the row twice (once on the way to the variance, once on the way to
the normalised row); both differences are the same centred row. -/

/-- The first centred row, the one that is squared: entry k is xₖ − mean. -/
theorem v5_at (b : Fin 8) (s : Fin 4096) (k : Fin 1024) :
    val_main_v5 (F := Ideal) x0 (ix3 b s k) = cen (fun k => x0 (ix3 b s k)) k := by
  have e : idx_main_v4 (ix3 b s k) = ix3 b s (0 : Fin 1) :=
    funext fun a => by match a with | ⟨0, _⟩ => rfl | ⟨1, _⟩ => rfl | ⟨2, _⟩ => rfl
  rw [val_main_v5_apply, val_main_v4_apply, e, v3_at, Ideal.subf_def]
  rfl

/-- The second centred row, the one that is normalised: the same entry. -/
theorem v12_at (b : Fin 8) (s : Fin 4096) (k : Fin 1024) :
    val_main_v12 (F := Ideal) x0 (ix3 b s k) = cen (fun k => x0 (ix3 b s k)) k := by
  have e : idx_main_v11 (ix3 b s k) = ix3 b s (0 : Fin 1) :=
    funext fun a => by match a with | ⟨0, _⟩ => rfl | ⟨1, _⟩ => rfl | ⟨2, _⟩ => rfl
  rw [val_main_v12_apply, val_main_v11_apply, e, v3_at, Ideal.subf_def]
  rfl

/-! ### The variance and the reciprocal standard deviation -/

/-- The sum of the squared centred entries of row (b, s), again started from the real 0. -/
theorem v7_at (b : Fin 8) (s : Fin 4096) :
    val_main_v7 (F := Ideal) x0 (ix2 b s)
      = ∑ k : Fin 1024, cen (fun k => x0 (ix3 b s k)) k * cen (fun k => x0 (ix3 b s k)) k := by
  rw [val_main_v7_apply, val_main_cst_1_apply, Ideal.ofBits_def, Ideal.ofBits_zero_f32, zero_add]
  refine Finset.sum_congr rfl fun k _ => ?_
  have e : idx_main_v7 (ix2 b s) k = ix3 b s k :=
    funext fun a => by match a with | ⟨0, _⟩ => rfl | ⟨1, _⟩ => rfl | ⟨2, _⟩ => rfl
  rw [e, val_main_v6_apply, v5_at, Ideal.mulf_def]

/-- The variance column: that sum over the word of 1024. -/
theorem v10_at (b : Fin 8) (s : Fin 4096) (z : Fin 1) :
    val_main_v10 (F := Ideal) x0 (ix3 b s z) = var (fun k => x0 (ix3 b s k)) := by
  have e : idx_main_v8 (ix3 b s z) = ix2 b s :=
    funext fun a => by match a with | ⟨0, _⟩ => rfl | ⟨1, _⟩ => rfl
  rw [val_main_v10_apply, val_main_v8_apply, e, v7_at, val_main_v9_apply, val_main_cst_2_apply, Ideal.hostDivf_def,
    Ideal.ofBits_def]
  rfl

/-- The reciprocal standard deviation column: rsqrt (variance + ε). -/
theorem v15_at (b : Fin 8) (s : Fin 4096) (z : Fin 1) :
    val_main_v15 (F := Ideal) x0 (ix3 b s z) = inv (fun k => x0 (ix3 b s k)) := by
  rw [val_main_v15_apply, val_main_v14_apply, v10_at, val_main_v13_apply, val_main_cst_3_apply, Ideal.addf_def,
    Ideal.ofBits_def, Ideal.hostUnary_rsqrt_def]
  rfl

/-! ### The normalised, scaled and shifted row -/

/-- The centred entry times the row's reciprocal standard deviation. -/
theorem v17_at (b : Fin 8) (s : Fin 4096) (k : Fin 1024) :
    val_main_v17 (F := Ideal) x0 (ix3 b s k)
      = cen (fun k => x0 (ix3 b s k)) k * inv (fun k => x0 (ix3 b s k)) := by
  have e : idx_main_v16 (ix3 b s k) = ix3 b s (0 : Fin 1) :=
    funext fun a => by match a with | ⟨0, _⟩ => rfl | ⟨1, _⟩ => rfl | ⟨2, _⟩ => rfl
  rw [val_main_v17_apply, v12_at, val_main_v16_apply, e, v15_at, Ideal.mulf_def]

/-- The scale, broadcast [1024] → [1, 1, 1024] → [8, 4096, 1024]: at (b, s, k) it is the scale's entry k. -/
theorem v19_at (b : Fin 8) (s : Fin 4096) (k : Fin 1024) :
    val_main_v19 (F := Ideal) x1 (ix3 b s k) = x1 (ix1 k) := by
  rw [val_main_v19_apply, val_main_v18_apply]
  exact congrArg x1 (funext fun a => by match a with | ⟨0, _⟩ => rfl)

/-- The shift, broadcast the same way: at (b, s, k) it is the shift's entry k. -/
theorem v22_at (b : Fin 8) (s : Fin 4096) (k : Fin 1024) :
    val_main_v22 (F := Ideal) x2 (ix3 b s k) = x2 (ix1 k) := by
  rw [val_main_v22_apply, val_main_v21_apply]
  exact congrArg x2 (funext fun a => by match a with | ⟨0, _⟩ => rfl)

/-- The normalised row: cₖ · r · wₖ + bₖ. -/
theorem v23_at (b : Fin 8) (s : Fin 4096) (k : Fin 1024) :
    val_main_v23 (F := Ideal) x0 x1 x2 (ix3 b s k)
      = normed (fun k => x0 (ix3 b s k)) (fun k => x1 (ix1 k)) (fun k => x2 (ix1 k)) k := by
  rw [val_main_v23_apply, val_main_v20_apply, v17_at, v19_at, v22_at, Ideal.addf_def, Ideal.mulf_def]
  rfl

/-! ### The projection, the bounded value and the code -/

/-- The contraction over the feature axis: at (b, s, n) the sum over k of the normalised entry k of row (b, s)
    times the weight W[n, k]. -/
theorem v24_at (b : Fin 8) (s : Fin 4096) (n : Fin 8) :
    val_main_v24 (F := Ideal) x0 x1 x2 x3 (ix3 b s n)
      = logit (fun k => x0 (ix3 b s k)) (fun k => x1 (ix1 k)) (fun k => x2 (ix1 k)) (fun k => x3 (ix2 n k)) := by
  rw [val_main_v24_apply]
  refine Finset.sum_congr rfl fun k _ => ?_
  have el : lidx_main_v24 (ix3 b s n) k = ix3 b s k :=
    funext fun a => by match a with | ⟨0, _⟩ => rfl | ⟨1, _⟩ => rfl | ⟨2, _⟩ => rfl
  have er : ridx_main_v24 (ix3 b s n) k = ix2 n k :=
    funext fun a => by match a with | ⟨0, _⟩ => rfl | ⟨1, _⟩ => rfl
  rw [el, er, v23_at]

/-- The bounded value h · tanh z. -/
theorem v27_at (b : Fin 8) (s : Fin 4096) (n : Fin 8) :
    val_main_v27 (F := Ideal) x0 x1 x2 x3 (ix3 b s n)
      = bounded (fun k => x0 (ix3 b s k)) (fun k => x1 (ix1 k)) (fun k => x2 (ix1 k)) (fun k => x3 (ix2 n k)) := by
  rw [val_main_v27_apply, val_main_v26_apply, val_main_cst_4_apply, val_main_v25_apply, v24_at, Ideal.mulf_def,
    Ideal.ofBits_def, Ideal.hostUnary_tanh_def]
  rfl

/-- The result u + (roundeven u − u) at the bounded value u = h · tanh z is roundeven u, the code: u is a finite
    real, so the difference cancels. -/
theorem v30_at (b : Fin 8) (s : Fin 4096) (n : Fin 8) :
    val_main_v30 (F := Ideal) x0 x1 x2 x3 (ix3 b s n)
      = code (fun k => x0 (ix3 b s k)) (fun k => x1 (ix1 k)) (fun k => x2 (ix1 k)) (fun k => x3 (ix2 n k)) := by
  rw [val_main_v30_apply, val_main_v29_apply, val_main_v28_apply, v27_at, Ideal.addf_def, Ideal.subf_def,
    Ideal.hostUnary_roundeven_def]
  exact ste_round _

end Stages

/-- The reference's result array is the specification `G` of its four arguments: entry (b, s, n) is the code of
    row (b, s) against the weight row n. -/
theorem ref_is_spec (x0 : (⟨S8x4096x1024, .f32⟩ : BufTy).Contents (Elt Ideal)) (x1 x2 : (⟨S1024, .f32⟩ : BufTy).Contents (Elt Ideal))
    (x3 : (⟨S8x1024, .f32⟩ : BufTy).Contents (Elt Ideal)) :
    Cert.ReferenceIdeal.Read.val_main_v30 (F := Ideal) x0 x1 x2 x3 = Cert.Fsq.G x0 x1 x2 x3 := by
  funext i
  obtain ⟨b, s, n, rfl⟩ : ∃ (b : Fin 8) (s : Fin 4096) (n : Fin 8), i = ix3 b s n := ⟨i 0, i 1, i 2, eq_ix3 i⟩
  rw [v30_at]
  rfl
end Cert.Fsq.Ref
end
-- ==== Proof.Layout.lean ====
/-
  The re-indexing between the two arrangements of the data.

  The kernel's program flattens the token axes before its region and restores them after it: regrs [8, 4096, 1024] is
  read as rows [32768, 1024] (row b·4096 + s is token (b, s)), the scale and the shift [1024] as single rows [1, 1024],
  the weights [8, 1024] transposed to [1024, 8], and the region's result [32768, 8] is read back as [8, 4096, 8].
  A row-major reshape keeps an element's position in the flattened order, so entry (b, s, n) of the restored result
  is entry (b·4096 + s, n) of the flat one, whose feature row is row (b, s) of regrs: the flat function of the
  re-arranged arguments, restored, is `G` of the arguments themselves.
-/
import proofs.«137417_j28381143892079_2_alg».proof.Proof.Spec
import Idealize.ShloMosaic.Lib.Pipeline.Value

noncomputable section

namespace Cert.Fsq

open Idealize.ShloMosaic Idealize.ShloMosaic.ValueIdx

/-- The code depends on its four rows only through their values. -/
theorem code_congr {x x' w w' b b' p p' : Fin 1024 → EReal} (hx : x = x') (hw : w = w') (hb : b = b') (hp : p = p') :
    code x w b p = code x' w' b' p' := by rw [hx, hw, hb, hp]

/-- Restoring the token axes of the flat result of the re-arranged arguments gives `G` of the arguments. -/
theorem restore_Gflat (x : (⟨3, ![8, 4096, 1024]⟩ : Shape).Idx → EReal) (w b : (⟨1, ![1024]⟩ : Shape).Idx → EReal)
    (W : (⟨2, ![8, 1024]⟩ : Shape).Idx → EReal)
    (h0 : (⟨3, ![8, 4096, 1024]⟩ : Shape).ShapeCasts ⟨2, ![32768, 1024]⟩)
    (h1 : (⟨1, ![1024]⟩ : Shape).ShapeCasts ⟨2, ![1, 1024]⟩)
    (h3 : (⟨2, ![8, 1024]⟩ : Shape).Transposes [1, 0] ⟨2, ![1024, 8]⟩)
    (h5 : (⟨2, ![32768, 8]⟩ : Shape).ShapeCasts ⟨3, ![8, 4096, 8]⟩) :
    shapeCast ⟨3, ![8, 4096, 8]⟩
        (Gflat (shapeCast ⟨2, ![32768, 1024]⟩ x h0) (shapeCast ⟨2, ![1, 1024]⟩ w h1) (shapeCast ⟨2, ![1, 1024]⟩ b h1)
          (transpose ⟨2, ![1024, 8]⟩ [1, 0] W h3)) h5
      = G x w b W := by
  funext i
  obtain ⟨bb, s, n, rfl⟩ : ∃ (bb : Fin 8) (s : Fin 4096) (n : Fin 8), i = ix3 bb s n := ⟨i 0, i 1, i 2, eq_ix3 i⟩
  have hr : bb.val * 4096 + s.val < 32768 := by have := bb.isLt; have := s.isLt; omega
  -- entry (b, s, n) of the restored array is entry (b·4096 + s, n) of the flat one
  refine (shapeCast_apply _ h5 (ix3 bb s n) (ix2 (⟨bb.val * 4096 + s.val, hr⟩ : Fin 32768) n) ?_).trans ?_
  · rw [Shape.rowMajor_val_two, Shape.rowMajor_val_three]; rfl
  -- and its four rows are the arguments' rows
  have e0 : (fun k : Fin 1024 => shapeCast ⟨2, ![32768, 1024]⟩ x h0 (ix2 (⟨bb.val * 4096 + s.val, hr⟩ : Fin 32768) k))
      = fun k => x (ix3 bb s k) :=
    funext fun k => shapeCast_apply x h0 _ (ix3 bb s k) (by rw [Shape.rowMajor_val_two, Shape.rowMajor_val_three]; rfl)
  have e1 : (fun k : Fin 1024 => shapeCast ⟨2, ![1, 1024]⟩ w h1 (ix2 (0 : Fin 1) k)) = fun k => w (ix1 k) :=
    funext fun k => shapeCast_apply w h1 _ (ix1 k) (by rw [Shape.rowMajor_val_one, Shape.rowMajor_val_two]; show k.val = 0 * 1024 + k.val; omega)
  have e2 : (fun k : Fin 1024 => shapeCast ⟨2, ![1, 1024]⟩ b h1 (ix2 (0 : Fin 1) k)) = fun k => b (ix1 k) :=
    funext fun k => shapeCast_apply b h1 _ (ix1 k) (by rw [Shape.rowMajor_val_one, Shape.rowMajor_val_two]; show k.val = 0 * 1024 + k.val; omega)
  have e3 : (fun k : Fin 1024 => transpose ⟨2, ![1024, 8]⟩ [1, 0] W h3 (ix2 k n)) = fun k => W (ix2 n k) :=
    funext fun k => transpose_apply [1, 0] W h3 (ix2 k n) (ix2 n k) (fun a => match a with | ⟨0, _⟩ => rfl | ⟨1, _⟩ => rfl)
  exact code_congr e0 e1 e2 e3

end Cert.Fsq

end
-- ==== Proof.LibKeepDims.lean ====
/-
  Two keep-dimension layout steps read at an index, for any extents.

  A reduction that keeps its reduced axis (a row sum kept as a column) is printed as a vector [a] viewed as a column
  [a, 1], and its result is spread back along the rows by a broadcast [a, 1] → [a, b]. A row-major view keeps an
  element's position, and position i of the vector is position i · 1 + 0 of the column, so the column reads the vector's
  entry i at (i, 0); the broadcast repeats the column's entry of row p at every (p, c).
-/
import Idealize.ShloMosaic.Lib.ValueIdx
import Idealize.ShloMosaic.Lib.Pipeline.Value

namespace Cert.Lib.KeepDims

open Idealize.ShloMosaic Idealize.ShloMosaic.ValueIdx

/-- A vector `[a]` viewed as a column `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along the rows to `[a, b]` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.KeepDims
-- ==== Proof.Payload.lean ====
/-
  The kernel body's stored value, read at one index, is the specification's code of the loaded rows.

  The body computes on whole blocks: x [4096, 1024] (one row per token), the scale w and shift b as [1, 1024] rows,
  the projection weights W [1024, 8]. Per row r it forms
    the row sum over the 1024 lanes, kept as a column [4096, 1] and divided by 1024           (the mean),
    the block minus that column spread along the rows                                          (the centred block),
    the row sum of its squares, as a column, divided by 1024, plus ε, under rsqrt              (the reciprocal root),
    centred · reciprocal root (spread along the rows) · w (spread down the columns) + b        (the normalised block),
    the product with W accumulated into zero                                                   (the logits [4096, 8]),
    h · tanh of it, rounded to the nearest integer with ties to even.
  Every one of these reads, at an index given by its coordinates, as the corresponding scalar expression of the
  specification (Spec.lean): a one-axis sum read at row r is the sum over k of the entries (r, k); a vector viewed as a
  column reads its entry at (r, 0); a column spread along the rows reads (r, 0) at every (r, k); a one-row block spread
  down the columns reads (0, k) at every (r, k); the product into a zero accumulator at (r, n) is the sum over the one
  contracted coordinate k of left (r, k) times right (k, n). The elementwise operations read through by definition.
-/
import proofs.«137417_j28381143892079_2_alg».proof.Proof.Gen.KernelIdeal.Skeleton
import proofs.«137417_j28381143892079_2_alg».proof.Proof.Spec
import proofs.«137417_j28381143892079_2_alg».proof.Proof.LibKeepDims
import Idealize.ShloMosaic.Lib.ValueIdx
import Idealize.ShloMosaic.Lib.Pipeline.Value
import Idealize.ShloMosaic.Lib.ValueLayout
import Idealize.ShloMosaic.PureOps.Ideal.Laws
noncomputable section
open Idealize.ShloMosaic Idealize.ShloMosaic.ValueIdx
namespace Cert.Fsq.Kernel
open Cert.KernelIdeal Cert.Lib.KeepDims

/-! ## The row sum read at an index

(The two keep-dimension layout steps — a vector viewed as a column, a column spread along the rows — are in LibKeepDims.lean.) -/

/-- The sum over the lanes of a `[4096, 1024]` block, read at row `r`: the sum of that row's 1024 entries. -/
theorem rowSum_apply (v : FVec Ideal S4096x1024 .f32) (h : S4096x1024.Reduces [1] S4096) (hφ : FKind.Formats .f32)
    (hacc : (0x00000000#32 : BitVec 32) = FKind.add.neutral .f32 hφ) (r : Fin 4096) :
    multiReduction .add [1] S4096 v 0x00000000#32 h hφ hacc (ix1 r) = ∑ k : Fin 1024, v (ix2 r k) := by
  refine (Ideal.multiReduction_add_single v _ h hφ hacc (ix1 r)).trans ?_
  refine Finset.sum_congr rfl fun k _ => congrArg v ?_
  funext a
  match a with
  | ⟨0, _⟩ => exact Fin.ext rfl
  | ⟨1, _⟩ => exact Fin.ext rfl

/-! ## The projection read at an index -/

/-- The left operand's index at output `j` and contraction position `q` keeps `j`'s row … -/
theorem lhs_dot_0 (j : S4096x8.Idx) (q : dot_S4096x1024_S1024x8_S4096x8_1_0_0_1_n_n.contr.Idx) :
    (dot_S4096x1024_S1024x8_S4096x8_1_0_0_1_n_n.lhsIdx j q 0).val = (j 0).val := by
  unfold DotDims.lhsIdx
  rw [dif_neg (show ¬(0 : Fin S4096x1024.rank) ∈ dot_S4096x1024_S1024x8_S4096x8_1_0_0_1_n_n.lhsBatch by decide),
    dif_pos (show (0 : Fin S4096x1024.rank) ∈ dot_S4096x1024_S1024x8_S4096x8_1_0_0_1_n_n.lhsNonContracting by decide)]
  rfl
/-- … and takes its column from the contraction position. -/
theorem lhs_dot_1 (j : S4096x8.Idx) (q : dot_S4096x1024_S1024x8_S4096x8_1_0_0_1_n_n.contr.Idx) :
    (dot_S4096x1024_S1024x8_S4096x8_1_0_0_1_n_n.lhsIdx j q 1).val = (q ⟨0, by decide⟩).val :=
  dot_S4096x1024_S1024x8_S4096x8_1_0_0_1_n_n.lhsIdx_val_of_single rfl j q
/-- The right operand's index takes its row from the contraction position … -/
theorem rhs_dot_0 (j : S4096x8.Idx) (q : dot_S4096x1024_S1024x8_S4096x8_1_0_0_1_n_n.contr.Idx) :
    (dot_S4096x1024_S1024x8_S4096x8_1_0_0_1_n_n.rhsIdx j q 0).val = (q ⟨0, by decide⟩).val :=
  dot_S4096x1024_S1024x8_S4096x8_1_0_0_1_n_n.rhsIdx_val_of_single rfl j q
/-- … and keeps `j`'s column. -/
theorem rhs_dot_1 (j : S4096x8.Idx) (q : dot_S4096x1024_S1024x8_S4096x8_1_0_0_1_n_n.contr.Idx) :
    (dot_S4096x1024_S1024x8_S4096x8_1_0_0_1_n_n.rhsIdx j q 1).val = (j 1).val := by
  unfold DotDims.rhsIdx
  rw [dif_neg (show ¬(1 : Fin S1024x8.rank) ∈ dot_S4096x1024_S1024x8_S4096x8_1_0_0_1_n_n.rhsBatch by decide),
    dif_pos (show (1 : Fin S1024x8.rank) ∈ dot_S4096x1024_S1024x8_S4096x8_1_0_0_1_n_n.rhsNonContracting by decide)]
  rfl

/-- The projection read at `(r, n)`: the sum over the 1024 features of row `r` of the left operand times column `n`
    of the right one. -/
theorem matmul_at (A : FVec Ideal S4096x1024 .f32) (B : FVec Ideal S1024x8 .f32) (r : Fin 4096) (n : Fin 8) :
    matmul (F := Ideal) dot_S4096x1024_S1024x8_S4096x8_1_0_0_1_n_n none A B (constant S4096x8 .f32 0x00000000#32) (ix2 r n)
      = ∑ k : Fin 1024, A (ix2 r k) * B (ix2 k n) := by
  refine (Ideal.matmul_constant_zero_apply dot_S4096x1024_S1024x8_S4096x8_1_0_0_1_n_n none A B (ix2 r n)).trans ?_
  rw [← Equiv.sum_comp (contrEquiv1 dot_S4096x1024_S1024x8_S4096x8_1_0_0_1_n_n 1024 rfl rfl).symm]
  refine Finset.sum_congr rfl fun k _ => ?_
  have hk := contrEquiv1_symm_val dot_S4096x1024_S1024x8_S4096x8_1_0_0_1_n_n 1024 rfl rfl k
  have el : dot_S4096x1024_S1024x8_S4096x8_1_0_0_1_n_n.lhsIdx (ix2 r n)
      ((contrEquiv1 dot_S4096x1024_S1024x8_S4096x8_1_0_0_1_n_n 1024 rfl rfl).symm k) = ix2 r k :=
    funext fun a => Fin.ext (by
      match a with
      | ⟨0, _⟩ => exact lhs_dot_0 _ _
      | ⟨1, _⟩ => exact (lhs_dot_1 _ _).trans hk)
  have er : dot_S4096x1024_S1024x8_S4096x8_1_0_0_1_n_n.rhsIdx (ix2 r n)
      ((contrEquiv1 dot_S4096x1024_S1024x8_S4096x8_1_0_0_1_n_n 1024 rfl rfl).symm k) = ix2 k n :=
    funext fun a => Fin.ext (by
      match a with
      | ⟨0, _⟩ => exact (rhs_dot_0 _ _).trans hk
      | ⟨1, _⟩ => exact rhs_dot_1 _ _)
  rw [el, er]

/-! ## The intermediate blocks read at an index -/

/-- The row sum kept as a column and divided by a constant: at `(r, 0)` it is the row's sum over that constant. -/
theorem avgCol_apply (v : FVec Ideal S4096x1024 .f32) (h : S4096x1024.Reduces [1] S4096) (hφ : FKind.Formats .f32)
    (hacc : (0x00000000#32 : BitVec 32) = FKind.add.neutral .f32 hφ) (hc : S4096.ShapeCasts S4096x1) (c : Ideal .f32)
    (r : Fin 4096) (z : Fin 1) :
    divf (shapeCast S4096x1 (multiReduction .add [1] S4096 v 0x00000000#32 h hφ hacc) hc) (broadcast S4096x1 c) (ix2 r z)
      = Ideal.div (∑ k : Fin 1024, v (ix2 r k)) c := by
  show Ideal.div (shapeCast S4096x1 (multiReduction .add [1] S4096 v 0x00000000#32 h hφ hacc) hc (ix2 r z)) c = _
  refine congrArg (fun t => Ideal.div t c) ?_
  exact (shapeCast_a_a1_apply _ hc r z).trans (rowSum_apply v h hφ hacc r)

/-- The block minus its rows' averages, at `(r, k)`: the entry minus the row's average. -/
theorem cenBlock_apply (v : FVec Ideal S4096x1024 .f32) (h : S4096x1024.Reduces [1] S4096) (hφ : FKind.Formats .f32)
    (hacc : (0x00000000#32 : BitVec 32) = FKind.add.neutral .f32 hφ) (hc : S4096.ShapeCasts S4096x1)
    (hb : S4096x1.Broadcasts S4096x1024) (c : Ideal .f32) (r : Fin 4096) (k : Fin 1024) :
    subf v (broadcastTo S4096x1024
        (divf (shapeCast S4096x1 (multiReduction .add [1] S4096 v 0x00000000#32 h hφ hacc) hc) (broadcast S4096x1 c)) hb)
      (ix2 r k) = v (ix2 r k) - Ideal.div (∑ k : Fin 1024, v (ix2 r k)) c := by
  show v (ix2 r k) - broadcastTo S4096x1024
        (divf (shapeCast S4096x1 (multiReduction .add [1] S4096 v 0x00000000#32 h hφ hacc) hc) (broadcast S4096x1 c)) hb
      (ix2 r k) = _
  refine congrArg (fun t => v (ix2 r k) - t) ?_
  exact (broadcastTo_a1_ab_apply _ hb r k).trans (avgCol_apply v h hφ hacc hc c r 0)

/-- The reciprocal-root column of a block `C` whose row `r` is known entry by entry (`hC`): at `(r, 0)` it is
    `rsqrt` of the average of the squares plus the offset. -/
theorem invCol_apply (C : FVec Ideal S4096x1024 .f32) (h : S4096x1024.Reduces [1] S4096) (hφ : FKind.Formats .f32)
    (hacc : (0x00000000#32 : BitVec 32) = FKind.add.neutral .f32 hφ) (hc : S4096.ShapeCasts S4096x1) (c e : Ideal .f32)
    (r : Fin 4096) (z : Fin 1) (y : Fin 1024 → EReal) (hC : ∀ k, C (ix2 r k) = y k) :
    rsqrt (addf (divf (shapeCast S4096x1 (multiReduction .add [1] S4096 (mulf C C) 0x00000000#32 h hφ hacc) hc)
        (broadcast S4096x1 c)) (broadcast S4096x1 e)) (ix2 r z)
      = Ideal.rsqrt (Ideal.div (∑ k : Fin 1024, y k * y k) c + e) := by
  show Ideal.rsqrt (divf (shapeCast S4096x1 (multiReduction .add [1] S4096 (mulf C C) 0x00000000#32 h hφ hacc) hc)
        (broadcast S4096x1 c) (ix2 r z) + e) = _
  refine congrArg (fun t => Ideal.rsqrt (t + e)) ?_
  refine (avgCol_apply (mulf C C) h hφ hacc hc c r z).trans ?_
  refine congrArg (fun t => Ideal.div t c) ?_
  exact Finset.sum_congr rfl fun k _ => congrArg₂ (· * ·) (hC k) (hC k)

/-- The normalised block: a block `C` times a column `I` spread along the rows, times a row `w` spread down the
    columns, plus a row `b` likewise, at `(r, k)`. -/
theorem normBlock_apply (C : FVec Ideal S4096x1024 .f32) (I : FVec Ideal S4096x1 .f32) (w b : FVec Ideal S1x1024 .f32)
    (hb : S4096x1.Broadcasts S4096x1024) (hw : S1x1024.Broadcasts S4096x1024) (r : Fin 4096) (k : Fin 1024)
    (c i : EReal) (hC : C (ix2 r k) = c) (hI : I (ix2 r (0 : Fin 1)) = i) :
    addf (mulf (mulf C (broadcastTo S4096x1024 I hb)) (broadcastTo S4096x1024 w hw)) (broadcastTo S4096x1024 b hw) (ix2 r k)
      = c * i * w (ix2 (0 : Fin 1) k) + b (ix2 (0 : Fin 1) k) := by
  show C (ix2 r k) * broadcastTo S4096x1024 I hb (ix2 r k) * broadcastTo S4096x1024 w hw (ix2 r k)
      + broadcastTo S4096x1024 b hw (ix2 r k) = _
  rw [broadcastTo_a1_ab_apply I hb r k, broadcastTo_1b_ab_apply w hw r k, broadcastTo_1b_ab_apply b hw r k, hC, hI]

/-! ## The stored value -/

/-- The body's stored value at `(r, n)` is the code of row `r` against weight column `n`. -/
theorem pay_apply (x0 : Vec Ideal S4096x1024 .f32) (x1 x2 : Vec Ideal S1x1024 .f32) (x3 : Vec Ideal S1024x8 .f32)
    (r : Fin 4096) (n : Fin 8) :
    Cert.KernelIdeal.Gen.k0_pay1 (F := Ideal) x0 x1 x2 x3 (ix2 r n)
      = Cert.Fsq.code (fun k => x0 (ix2 r k)) (fun k => x1 (ix2 (0 : Fin 1) k)) (fun k => x2 (ix2 (0 : Fin 1) k))
          (fun k => x3 (ix2 k n)) := by
  unfold Cert.KernelIdeal.Gen.k0_pay1
  -- the casts of a block to its own shape are the identity
  simp only [shapeCast_self]
  -- the three pointwise operations on top: round (h · tanh z), z the projection at (r, n)
  show Ideal.liftRound Ideal.roundHalfEven (cHalf * Ideal.tanh
      (matmul (F := Ideal) dot_S4096x1024_S1024x8_S4096x8_1_0_0_1_n_n none _ x3 (constant S4096x8 .f32 0x00000000#32) (ix2 r n)))
    = Ideal.liftRound Ideal.roundHalfEven (cHalf * Ideal.tanh
      (logit (fun k => x0 (ix2 r k)) (fun k => x1 (ix2 (0 : Fin 1) k)) (fun k => x2 (ix2 (0 : Fin 1) k)) (fun k => x3 (ix2 k n))))
  refine congrArg (fun z => Ideal.liftRound Ideal.roundHalfEven (cHalf * Ideal.tanh z)) ?_
  -- the projection is the sum over the features of the normalised row times the weight column
  refine (matmul_at _ x3 r n).trans ?_
  refine Finset.sum_congr rfl fun k _ => ?_
  refine congrArg (fun t => t * x3 (ix2 k n)) ?_
  -- the normalised block at (r, k), over the centred block at (r, k) and the reciprocal-root column at (r, 0)
  refine normBlock_apply _ _ x1 x2 _ _ r k (cen (fun k => x0 (ix2 r k)) k) (inv (fun k => x0 (ix2 r k))) ?_ ?_
  · exact cenBlock_apply x0 _ _ _ _ _ _ r k
  · exact invCol_apply _ _ _ _ _ _ _ r 0 (cen (fun k => x0 (ix2 r k))) (fun k' => cenBlock_apply x0 _ _ _ _ _ _ r k')

end Cert.Fsq.Kernel
end
-- ==== Proof.KernelValue.lean ====
/-
  The kernel's program, read as a value: its result array is `G` of its argument arrays.

  The region runs over eight grid points. Point t reads rows t·4096 … t·4096 + 4095 of the flattened features (one block
  of window 0), the whole scale row, shift row and transposed weights (windows 1–3, the same block at every point), and
  writes back rows t·4096 … of the flat result (window 4). What the body stores at a block entry (r, n) is the code of
  block row r against weight column n, so the block written back at point t is block t of ONE function of the arrays
  as the region finds them — the flat specification `Gflat`. The eight blocks tile the flat result, so after the run
  the array is `Gflat`; the program's last line restores the token axes, and the re-indexing lemma turns that into
  `G` of the arguments.
-/
import proofs.«137417_j28381143892079_2_alg».proof.Proof.Gen.KernelIdeal.Frame
import proofs.«137417_j28381143892079_2_alg».proof.Proof.Spec
import proofs.«137417_j28381143892079_2_alg».proof.Proof.Layout
import proofs.«137417_j28381143892079_2_alg».proof.Proof.Payload
import Idealize.ShloMosaic.Lib.StableHlo.Run
import Idealize.ShloMosaic.Lib.Pipeline.Value

set_option maxRecDepth 16384

noncomputable section

namespace Cert.Fsq.KernelValue

open Idealize.ShloMosaic Idealize.ShloMosaic.TcCoe Idealize.ShloMosaic.ValueIdx Idealize.SL.Sem Idealize.ShloMosaic.StableHlo
open Idealize.ShloMosaic.Pipeline (Dat Cfg Window)
open Cert.KernelIdeal Cert.KernelIdeal.Gen

variable (m : (ℓ : Loc nD τ sig) → Buf (Elt Ideal) ℓ) (ρ : Dev nD → PrngReg)

/-! ## The arrays as the region finds them -/

/-- The flattened features: the program's first line reshapes regrs to rows. -/
theorem V_v0 (c : Dev nD) : (V m c main_v0 : S32768x1024.Idx → EReal)
    = shapeCast S32768x1024 (m ((c : Thread nD τ).loc main_arg0)) shapeCasts_S8x4096x1024_S32768x1024 := by
  show StableHlo.after hostOps0 (fun b => m (c, b)) (Proc.devRef .tc main_v0) = _
  after_results; rfl

/-- The scale as a single row. -/
theorem V_v1 (c : Dev nD) : (V m c main_v1 : S1x1024.Idx → EReal)
    = shapeCast S1x1024 (m ((c : Thread nD τ).loc main_arg1)) shapeCasts_S1024_S1x1024 := by
  show StableHlo.after hostOps0 (fun b => m (c, b)) (Proc.devRef .tc main_v1) = _
  after_results; rfl

/-- The shift as a single row. -/
theorem V_v2 (c : Dev nD) : (V m c main_v2 : S1x1024.Idx → EReal)
    = shapeCast S1x1024 (m ((c : Thread nD τ).loc main_arg2)) shapeCasts_S1024_S1x1024 := by
  show StableHlo.after hostOps0 (fun b => m (c, b)) (Proc.devRef .tc main_v2) = _
  after_results; rfl

/-- The weights transposed. -/
theorem V_v3 (c : Dev nD) : (V m c main_v3 : S1024x8.Idx → EReal)
    = transpose S1024x8 [1, 0] (m ((c : Thread nD τ).loc main_arg3)) transposes_S8x1024_S1024x8_1_0 := by
  show StableHlo.after hostOps0 (fun b => m (c, b)) (Proc.devRef .tc main_v3) = _
  after_results

/-! ## One block entry -/

/-- An entry of the body's stored block is the flat specification at the array entry it lands on, once the block's
    row of features is the array's row there, the scale and shift rows are the arrays' rows, and the block's weight
    column is the array's column. Stated over variables of the literal block and array shapes. -/
theorem block_entry (X : S32768x1024.Idx → EReal) (w b : S1x1024.Idx → EReal) (Wt : S1024x8.Idx → EReal)
    (x0 : Vec Ideal S4096x1024 .f32) (x1 x2 : Vec Ideal S1x1024 .f32) (x3 : Vec Ideal S1024x8 .f32)
    (j : S4096x8.Idx) (i : S32768x8.Idx)
    (h0 : ∀ k : Fin 1024, x0 (ix2 (j 0) k) = X (ix2 (i 0) k))
    (h1 : ∀ k : Fin 1024, x1 (ix2 (0 : Fin 1) k) = w (ix2 (0 : Fin 1) k))
    (h2 : ∀ k : Fin 1024, x2 (ix2 (0 : Fin 1) k) = b (ix2 (0 : Fin 1) k))
    (h3 : ∀ k : Fin 1024, x3 (ix2 k (j 1)) = Wt (ix2 k (i 1))) :
    k0_pay1 (F := Ideal) x0 x1 x2 x3 j = Gflat X w b Wt i := by
  obtain ⟨r, n, rfl⟩ : ∃ (r : Fin 4096) (n : Fin 8), j = ix2 r n := ⟨j 0, j 1, eq_ix2 j⟩
  rw [Cert.Fsq.Kernel.pay_apply]
  exact code_congr (funext h0) (funext h1) (funext h2) (funext h3)

/-! ## The printed index maps over the grid -/

theorem hz : (![0, 0] : Fin 2 → Nat) = fun _ => 0 := funext fun a => by fin_cases a <;> rfl

/-- At every point the feature window's block row is the result window's, every other block index is zero, and the
    result's block row stays below eight. -/
theorem idx_facts : ∀ t : Fin cfg0.N,
    win0_0.index t (0 : Fin 2) = win0_4.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (1 : Fin 2) = 0
    ∧ win0_4.index t (0 : Fin 2) ≤ 7 :=
  (by decide +kernel : ∀ t : Fin grid0.N, _)

/-- Every block row of the result is some point's. -/
theorem idx_onto : ∀ q : Fin 8, ∃ t : Fin cfg0.N, win0_4.index t = ![q.val, 0] :=
  (by decide +kernel : ∀ q : Fin 8, ∃ t : Fin grid0.N, win0_4.index t = ![q.val, 0])

/-! ## What a point writes back -/

/-- The block point `t` writes back is block `t` of the flat specification of the arrays as the region finds them. -/
theorem flushed4_eq (c : Dev nD) (t : Fin cfg0.N) :
    (dats m 0 c).flushed 4 t = ((cfg0.win 4).blk t).view.read (Elt Ideal)
      (Gflat (V m c main_v0) (V m c main_v1) (V m c main_v2) (V m c main_v3)) := by
  show (cfg0.win 4).cut (grid0.coords t) ((dats m 0 c).after 4 t) = _
  rw [after0_4]
  unfold out0_4
  rw [View.canon_unit_zero hz]
  simp only [View.ld_unit_zero (S := S4096x1024) hz, View.ld_unit_zero (S := S1x1024) hz, View.ld_unit_zero (S := S1024x8) hz]
  obtain ⟨e00, e01, e10, e11, e20, e21, e30, e31, e41, e40⟩ := idx_facts t
  funext j
  refine block_entry (V m c main_v0) (V m c main_v1) (V m c main_v2) (V m c main_v3)
    (iblk m c 0 t) (iblk m c 1 t) (iblk m c 2 t) (iblk m c 3 t) j (((cfg0.win 4).blk t).view.emb j) ?_ ?_ ?_ ?_
  · intro k
    show V m c main_v0 (((cfg0.win 0).blk t).view.emb (ix2 (j 0) k)) = V m c main_v0 (ix2 ((((cfg0.win 4).blk t).view.emb j) 0) k)
    refine congrArg (V m c main_v0) (funext fun a => Fin.ext ?_)
    match a with
    | ⟨0, _⟩ => show win0_0.index t (0 : Fin 2) * 4096 + 1 * (j 0).val = win0_4.index t (0 : Fin 2) * 4096 + 1 * (j 0).val; omega
    | ⟨1, _⟩ => show win0_0.index t (1 : Fin 2) * 1024 + 1 * k.val = k.val; omega
  · intro k
    show V m c main_v1 (((cfg0.win 1).blk t).view.emb (ix2 (0 : Fin 1) k)) = V m c main_v1 (ix2 (0 : Fin 1) k)
    refine congrArg (V m c main_v1) (funext fun a => Fin.ext ?_)
    match a with
    | ⟨0, _⟩ => show win0_1.index t (0 : Fin 2) * 1 + 1 * 0 = 0; omega
    | ⟨1, _⟩ => show win0_1.index t (1 : Fin 2) * 1024 + 1 * k.val = k.val; omega
  · intro k
    show V m c main_v2 (((cfg0.win 2).blk t).view.emb (ix2 (0 : Fin 1) k)) = V m c main_v2 (ix2 (0 : Fin 1) k)
    refine congrArg (V m c main_v2) (funext fun a => Fin.ext ?_)
    match a with
    | ⟨0, _⟩ => show win0_2.index t (0 : Fin 2) * 1 + 1 * 0 = 0; omega
    | ⟨1, _⟩ => show win0_2.index t (1 : Fin 2) * 1024 + 1 * k.val = k.val; omega
  · intro k
    show V m c main_v3 (((cfg0.win 3).blk t).view.emb (ix2 k (j 1))) = V m c main_v3 (ix2 k ((((cfg0.win 4).blk t).view.emb j) 1))
    refine congrArg (V m c main_v3) (funext fun a => Fin.ext ?_)
    match a with
    | ⟨0, _⟩ => show win0_3.index t (0 : Fin 2) * 1024 + 1 * k.val = k.val; omega
    | ⟨1, _⟩ => show win0_3.index t (1 : Fin 2) * 8 + 1 * (j 1).val = win0_4.index t (1 : Fin 2) * 8 + 1 * (j 1).val; omega

/-! ## The blocks tile the flat result -/

/-- An entry of the flat result is in point `t`'s block iff each coordinate is in the block's range on its axis. -/
theorem mem_blk4 (t : Fin cfg0.N) (i : S32768x8.Idx) :
    i ∈ ((cfg0.win 4).blk t).view.set ↔ ∀ a : Fin 2, win0_4.index t a * S4096x8.size a ≤ (i a).val ∧ (i a).val < win0_4.index t a * S4096x8.size a + S4096x8.size a := by
  show i ∈ ((View.whole main_v4).slice (win0_4.rect t)).set ↔ _
  rw [View.set_slice_whole, Rect.mem_set_unit]
  exact Iff.rfl

/-- Row r of the flat result is written back by the point whose block row is r / 4096. -/
theorem cover4 (i : S32768x8.Idx) :
    ∃ t : Fin cfg0.N, (cfg0.win 4).flush t = true ∧ i ∈ ((cfg0.win 4).blk t).view.set := by
  have hi0 : (i 0).val < 32768 := (i 0).isLt
  have hi1 : (i 1).val < 8 := (i 1).isLt
  obtain ⟨t, ht⟩ := idx_onto ⟨(i 0).val / 4096, by omega⟩
  have q0 : win0_4.index t (0 : Fin 2) = (i 0).val / 4096 := congrFun ht 0
  have q1 : win0_4.index t (1 : Fin 2) = 0 := congrFun ht 1
  refine ⟨t, flush0_4 t, ?_⟩
  rw [mem_blk4]
  intro a
  match a with
  | ⟨0, _⟩ => show win0_4.index t (0 : Fin 2) * 4096 ≤ (i 0).val ∧ (i 0).val < win0_4.index t (0 : Fin 2) * 4096 + 4096; omega
  | ⟨1, _⟩ => show win0_4.index t (1 : Fin 2) * 8 ≤ (i 1).val ∧ (i 1).val < win0_4.index t (1 : Fin 2) * 8 + 8; omega

/-- The flat result after the run is the flat specification of the arrays as the region finds them. -/
theorem final4 (c : Dev nD) :
    (dats m 0 c).arrAt 4 cfg0.N = Gflat (V m c main_v0) (V m c main_v1) (V m c main_v2) (V m c main_v3) :=
  (dats m 0 c).arrAt_eq_of_cover 4 _ (fun t _ => flushed4_eq m c t) (fun i => cover4 i)

/-! ## The program's last line, and the run -/

/-- The result: the flat array after the region, with its token axes restored, is `G` of the arguments. -/
theorem result_eq (c : Dev nD) :
    Pipeline.afterTail₀ cfgs (dats m) 0 (V0 m) [hostOps1] c main_v5
      = G (m ((c : Thread nD τ).loc main_arg0)) (m ((c : Thread nD τ).loc main_arg1)) (m ((c : Thread nD τ).loc main_arg2))
          (m ((c : Thread nD τ).loc main_arg3)) := by
  have hA : Pipeline.withArrays (cfgs 0).spec c (V0 m c) (fun w => (dats m 0 c).arrAt w (cfgs 0).N) (Proc.devRef .tc main_v4)
      = Gflat (shapeCast S32768x1024 (m ((c : Thread nD τ).loc main_arg0)) shapeCasts_S8x4096x1024_S32768x1024)
          (shapeCast S1x1024 (m ((c : Thread nD τ).loc main_arg1)) shapeCasts_S1024_S1x1024)
          (shapeCast S1x1024 (m ((c : Thread nD τ).loc main_arg2)) shapeCasts_S1024_S1x1024)
          (transpose S1024x8 [1, 0] (m ((c : Thread nD τ).loc main_arg3)) transposes_S8x1024_S1024x8_1_0) :=
    ((Pipeline.withArrays_arr spec0 launch0.win.arr_inj c _ _ 4).trans (final4 m c)).trans
      (by rw [V_v0, V_v1, V_v2, V_v3])
  unfold Pipeline.afterTail₀
  show StableHlo.after hostOps1 _ (Proc.devRef .tc main_v5) = _
  after_results
  show shapeCast S8x4096x8 (Pipeline.withArrays (cfgs 0).spec c (V0 m c) (fun w => (dats m 0 c).arrAt w (cfgs 0).N)
    (Proc.devRef .tc main_v4)) shapeCasts_S32768x8_S8x4096x8 = _
  rw [hA]
  exact restore_Gflat _ _ _ _ _ _ _ _

/-- Every weakly fair execution of the kernel's program terminates with its result at `G` of the argument arrays and
    the arguments unchanged. -/
theorem run : θ_run defs (onTc (τ := τ) (main (F := Ideal))) ⟨m, fun _ => 0, ρ⟩ fun r => ∀ c : Dev nD,
      r.2.mem ((c.tc : Thread nD τ).loc main_v5)
        = G (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v5 (Pipeline.mem_restRefs_of main_v5 (by decide) (by decide))).trans (result_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c)⟩)
    (run_main m ρ)

end Cert.Fsq.KernelValue

end
-- ==== Proof.lean ====
/-
  The certificate of the finite-scalar-quantizer head: a Pallas kernel over eight blocks of 4096 token rows against
  its plain reference.

  Both programs compute, for every token (b, s) and level channel n, the same function of the arguments on the
  extended reals (`Cert.Fsq.G`, Proof/Spec.lean): layer-normalise the token's 1024 features (mean, biased variance,
  rsqrt of the variance plus ε, scale and shift), project onto channel n, bound by h · tanh, round to the nearest
  integer with ties to even.
  * The kernel's program flattens the token axes, runs the body on eight blocks of rows and restores the axes; each
    block written back is a block of one flat function of the arrays, the blocks tile the result, and restoring the
    axes gives `G` (Proof/KernelValue.lean, over Proof/Payload.lean for the body's arithmetic and Proof/Layout.lean
    for the re-indexing).
  * The reference computes the same stages on the unflattened arrays and ends with the straight-through form
    v + (round v − v), which is round v because v = h · tanh z is a finite real (Proof/RefIsSpec.lean).
  The sums over the 1024 features and the matrix product are exact sums at the ideal values, so no reordering law
  is needed, and the precondition (finite inputs) is not used: the two sides agree at every extended-real input.
  The three frames are the generated ones (the reference's is its generated run with the result dropped); the
  ideal pass rewrote nothing, so `preserves` is trivial.
-/
import proofs.«137417_j28381143892079_2_alg».proof.Defs
import proofs.«137417_j28381143892079_2_alg».proof.Proof.Gen.Kernel
import proofs.«137417_j28381143892079_2_alg».proof.Proof.Gen.Kernel.Skeleton
import proofs.«137417_j28381143892079_2_alg».proof.Proof.Gen.Kernel.Launch
import proofs.«137417_j28381143892079_2_alg».proof.Proof.Gen.Kernel.Points
import proofs.«137417_j28381143892079_2_alg».proof.Proof.Gen.Kernel.Frame
import proofs.«137417_j28381143892079_2_alg».proof.Proof.Gen.KernelIdeal
import proofs.«137417_j28381143892079_2_alg».proof.Proof.Gen.KernelIdeal.Skeleton
import proofs.«137417_j28381143892079_2_alg».proof.Proof.Gen.KernelIdeal.Launch
import proofs.«137417_j28381143892079_2_alg».proof.Proof.Gen.KernelIdeal.Points
import proofs.«137417_j28381143892079_2_alg».proof.Proof.Gen.KernelIdeal.Frame
import proofs.«137417_j28381143892079_2_alg».proof.Proof.Gen.ReferenceIdeal
import proofs.«137417_j28381143892079_2_alg».proof.Proof.Gen.Pre_finite_inputs
import proofs.«137417_j28381143892079_2_alg».proof.Proof.Gen.ReferenceIdeal.Run
import proofs.«137417_j28381143892079_2_alg».proof.Proof.Gen.ReferenceIdeal.Read
import proofs.«137417_j28381143892079_2_alg».proof.Proof.Spec
import proofs.«137417_j28381143892079_2_alg».proof.Proof.RefIsSpec
import proofs.«137417_j28381143892079_2_alg».proof.Proof.KernelValue
import Idealize.ShloMosaic.Adequacy
import Idealize.ShloMosaic.Init

noncomputable section

namespace Cert.Proof

open Idealize.ShloMosaic Idealize.SL.Sem

/-- The word-level kernel runs and leaves its arguments unchanged. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments both programs end at `G` of the arguments: the kernel's program by its
    run read as a value, the reference by its run, its last stage and the stage-by-stage reading. -/
theorem algebraic : Cert.algebraic_KernelIdeal_ReferenceIdeal := by
  intro m ρ m' ρ' _ hagree
  refine ⟨_, Cert.Fsq.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v30_eq, Cert.Fsq.Ref.ref_is_spec, (hagree c).1, (hagree c).2.1, (hagree c).2.2.1,
    (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
